-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x64 : Shape := ⟨2, ![1000000, 64]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S2x1000000 32) (main_arg2 : FVec F S1000000x64 .f32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S2x1000000 : Shape := ⟨2, ![2, 1000000]⟩
abbrev S1000000x64 : Shape := ⟨2, ![1000000, 64]⟩
abbrev S128x64 : Shape := ⟨2, ![128, 64]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S10000x64 : Shape := ⟨2, ![10000, 64]⟩
abbrev S1x64 : Shape := ⟨2, ![1, 64]⟩

abbrev nBuf : Space → Nat
  | .hbm => 27
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x64, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x128_S128x64_S5000x64_1_0_0_1_n_n_wf : DotDims.WF S5000x128 S128x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1000000x64.size a
  hwx1_2 : ∀ i : grid1.Coords, EltTy.bits .f32 = 32 ∨ (Rect.block (s := S1000000x64) S10000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x64 : Shape := ⟨2, ![1000000, 64]⟩
abbrev S128x64 : Shape := ⟨2, ![128, 64]⟩
abbrev S64 : Shape := ⟨1, ![64]⟩
abbrev S100000x64 : Shape := ⟨2, ![100000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x64, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Spec.lean ====
/-
  The projection both programs compute first, as a plain sum: entry (r, q) of x · W is the sum over the 128 shared
  coordinates k of x (r, k) · W (k, q), on the extended reals. Both the kernel's tiled matmul and the reference's
  whole dot product are read against this one function.
-/
import Idealize.ShloMosaic.PureOps.Ideal
import Idealize.ShloMosaic.Lib.ValueIdx

noncomputable section

namespace Cert.Agg

open Idealize.ShloMosaic Idealize.ShloMosaic.ValueIdx

/-- x · W for x of [100000, 128] and W of [128, 64], index by index. -/
def matProd (a : (⟨2, ![100000, 128]⟩ : Shape).Idx → EReal) (w : (⟨2, ![128, 64]⟩ : Shape).Idx → EReal) :
    (⟨2, ![100000, 64]⟩ : Shape).Idx → EReal :=
  fun i => ∑ k : Fin 128, a (ix2 (n0 := 100000) ⟨(i 0).val, (i 0).isLt⟩ k) * w (ix2 (n1 := 64) k ⟨(i 1).val, (i 1).isLt⟩)

theorem matProd_apply (a : (⟨2, ![100000, 128]⟩ : Shape).Idx → EReal) (w : (⟨2, ![128, 64]⟩ : Shape).Idx → EReal)
    (r : Fin 100000) (q : Fin 64) :
    matProd a w (ix2 r q) = ∑ k : Fin 128, a (ix2 r k) * w (ix2 k q) := rfl

end Cert.Agg

end
-- ==== Proof.Aggregate.lean ====
/-
  What both programs compute after the projection xw = x · W, written once. Row 0 of the edge array names each edge's
  source node (a negative entry counted from the end), row 1 its destination node. Each edge carries the message
  xw[source] · edge_attr, the messages are summed into their destination rows starting from zero, and the bias is
  added to every row. The reference's whole dot product is x · W as a plain sum, so its result is this function of
  the five arguments.
-/
import proofs.«108769_j51737176047901_2_alg».proof.Proof.Gen.ReferenceIdeal.Read
import proofs.«108769_j51737176047901_2_alg».proof.Proof.Spec

noncomputable section

namespace Cert.Agg

open Cert.ReferenceIdeal Cert.ReferenceIdeal.Gen Idealize.ShloMosaic Idealize.ShloMosaic.TcCoe Idealize.ShloMosaic.ValueIdx

/-- Row 1 of the edge array: each edge's destination node. -/
def dstVec (ei : IVec S2x1000000 32) : IVec S1000000 32 :=
  shapeCast _ (extractStridedSlice S1x1000000 ![1, 0] ei slices_S2x1000000_S1x1000000_1_0) shapeCasts_S1x1000000_S1000000

/-- Row 0 of the edge array: each edge's source node. -/
def srcVec (ei : IVec S2x1000000 32) : IVec S1000000 32 :=
  shapeCast _ (extractStridedSlice S1x1000000 ![0, 0] ei slices_S2x1000000_S1x1000000_0_0) shapeCasts_S1x1000000_S1000000

/-- The rows of the projected features the edges read: row `source` (a negative source counted from the end). -/
def gatherRows (xw : FVec Ideal S100000x64 .f32) (src : IVec S1000000 32) : FVec Ideal S1000000x64 .f32 :=
  Host.gather gather_S100000x64_S1000000x1_S1000000x64_1_0_n_n_0_1_164 xw
    (broadcastInDim S1000000x1 ![0] bcast_S1000000_S1000000x1_0
      (select (cmpi .slt src (broadcastInDim S1000000 ![] bcast_S_S1000000 (constantI S_ 32 0#32)))
        (addi src (broadcastInDim S1000000 ![] bcast_S_S1000000 (constantI S_ 32 100000#32))) src))

/-- The messages summed into their destination rows from zero, plus the bias on every row. -/
def combine (dst : IVec S1000000 32) (msg : FVec Ideal S1000000x64 .f32) (b : FVec Ideal S64 .f32) : FVec Ideal S100000x64 .f32 :=
  addf (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst) msg)
    (broadcastInDim S100000x64 ![0, 1] bcast_S1x64_S100000x64_0_1 (broadcastInDim S1x64 ![1] bcast_S64_S1x64_1 b))

/-- The layer's output from the projected features, the edge array, the edge attributes and the bias. -/
def aggregate (xw : FVec Ideal S100000x64 .f32) (ei : IVec S2x1000000 32) (ea : FVec Ideal S1000000x64 .f32) (b : FVec Ideal S64 .f32) :
    FVec Ideal S100000x64 .f32 :=
  combine (dstVec ei) (mulf (gatherRows xw (srcVec ei)) ea) b

/-- The layer's output as one function of the five arguments. -/
def G (x : FVec Ideal S100000x128 .f32) (ei : IVec S2x1000000 32) (ea : FVec Ideal S1000000x64 .f32) (w : FVec Ideal S128x64 .f32)
    (b : FVec Ideal S64 .f32) : FVec Ideal S100000x64 .f32 :=
  aggregate (matProd x w) ei ea b

/-- The reference's whole dot product is x · W as a plain sum over the shared coordinate. -/
theorem dot_eq_matProd (x : FVec Ideal S100000x128 .f32) (w : FVec Ideal S128x64 .f32) :
    Host.dotGeneral (F := Ideal) dot_S100000x128_S128x64_S100000x64_1_0_0_1_n_n none x w = matProd x w := by
  funext i
  refine (Read.val_main_v0_apply x w i).trans ?_
  refine Finset.sum_congr rfl fun k _ => ?_
  have el : Read.lidx_main_v0 i k = ix2 (n0 := 100000) ⟨(i 0).val, (i 0).isLt⟩ k :=
    funext fun a => Fin.ext (by match a with | ⟨0, _⟩ => rfl | ⟨1, _⟩ => rfl)
  have er : Read.ridx_main_v0 i k = ix2 (n1 := 64) k ⟨(i 1).val, (i 1).isLt⟩ :=
    funext fun a => Fin.ext (by match a with | ⟨0, _⟩ => rfl | ⟨1, _⟩ => rfl)
  rw [el, er]

/-- The reference run's result term is `G` of the arguments. -/
theorem ref_eq_G (x : FVec Ideal S100000x128 .f32) (ei : IVec S2x1000000 32) (ea : FVec Ideal S1000000x64 .f32) (w : FVec Ideal S128x64 .f32)
    (b : FVec Ideal S64 .f32) :
    aggregate (Host.dotGeneral (F := Ideal) dot_S100000x128_S128x64_S100000x64_1_0_0_1_n_n none x w) ei ea b = G x ei ea w b := by
  unfold G
  rw [dot_eq_matProd]

end Cert.Agg

end
-- ==== Proof.KernelRun.lean ====
/-
  The kernel program's run with its result buffer named. @main is four segments — the first pallas_call, thirteen host
  operations, the second pallas_call, seven host operations — and the buffer contents at each segment boundary are a
  fold from the launch memory: a pallas_call leaves its arrays at what its write-backs made of them, a host stretch
  applies its operations. Every weakly fair execution terminates with every unscoped buffer at the last boundary's
  contents; in particular the result buffer holds the last boundary's contents at the result, and the five arguments
  are as launched.
-/
import proofs.«108769_j51737176047901_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the arguments as launched. -/
theorem run : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KernelRun

end
-- ==== Proof.MatmulAt.lean ====
/-
  The first kernel body at one grid point: it loads a [5000, 128] block of x and the whole [128, 64] weight, narrows
  both to bf16 (the identity on the extended reals) and multiplies them into a zero accumulator. Read at row p and
  column q of the block the stored value is the sum over k of block (p, k) · weight (k, q).
-/
import proofs.«108769_j51737176047901_2_alg».proof.Proof.Gen.KernelIdeal.Skeleton
import Idealize.ShloMosaic.Lib.ValueIdx
import Idealize.ShloMosaic.PureOps.Ideal.Laws

noncomputable section

namespace Cert.KernelIdeal.MatmulAt

open Cert.KernelIdeal Cert.KernelIdeal.Gen Idealize.ShloMosaic Idealize.ShloMosaic.ValueIdx

/-- The block product's dimension numbers: rows of the left operand against columns of the right, one shared axis. -/
abbrev D : DotDims S5000x128 S128x64 S5000x64 := dot_S5000x128_S128x64_S5000x64_1_0_0_1_n_n

theorem lhs_0 (i : S5000x64.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x64.Idx) (q : D.contr.Idx) : (D.lhsIdx i q 1).val = (q ⟨0, by decide⟩).val :=
  D.lhsIdx_val_of_single rfl i q
theorem rhs_0 (i : S5000x64.Idx) (q : D.contr.Idx) : (D.rhsIdx i q 0).val = (q ⟨0, by decide⟩).val :=
  D.rhsIdx_val_of_single rfl i q
theorem rhs_1 (i : S5000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- The stored value at (p, q): the row of the x block against the column of the weight. -/
theorem pay_at (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  show FloatOps.matmul D none (truncf .bf16 x0 bitsLt_bf16_f32) (truncf .bf16 x1 bitsLt_bf16_f32) (constant (F := Ideal) S5000x64 .f32 0x00000000#32) (ix2 p q) = _
  refine (Ideal.matmul_constant_zero_apply D none (truncf .bf16 x0 bitsLt_bf16_f32) (truncf .bf16 x1 bitsLt_bf16_f32) (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]
  rfl

end Cert.KernelIdeal.MatmulAt

end
-- ==== Proof.Projection.lean ====
/-
  The first pallas_call computes x · W twenty row blocks at a time: grid point `t` reads rows 5000·t … 5000·t + 4999 of x
  and the whole weight, and writes the same rows of the result. Entry (r, q) of the result array after the call is
  therefore the sum over k of x (r, k) · W (k, q): the whole product, whatever arrays the call finds.
-/
import proofs.«108769_j51737176047901_2_alg».proof.Proof.Gen.KernelIdeal.Frame
import proofs.«108769_j51737176047901_2_alg».proof.Proof.Spec
import proofs.«108769_j51737176047901_2_alg».proof.Proof.MatmulAt
import Idealize.ShloMosaic.Lib.Pipeline.Value

noncomputable section

namespace Cert.KernelIdeal.Projection

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- At grid point `t` the x window and the result window sit on row block `t`; the weight window stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays the call reads. -/
theorem flushed_eq (c : Dev nD) (t : Fin cfg0.N) :
    (dat0 V c).flushed 2 t = ((cfg0.win 2).blk t).view.read (Elt Ideal) (Cert.Agg.matProd (V c main_arg0) (V c main_arg3)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x64) zero_off]
  obtain ⟨e0, e1, e2, e3, e4, e5⟩ := idx_facts t
  funext j
  have hj0 : (j 0).val < 5000 := (j 0).isLt
  have hj1 : (j 1).val < 64 := (j 1).isLt
  have hN : grid0.N = 20 := N_0
  have ht : t.val < 20 := hN ▸ t.isLt
  have hj : (j : S5000x64.Idx) = ix2 (n0 := 5000) (n1 := 64) ⟨(j 0).val, hj0⟩ ⟨(j 1).val, hj1⟩ :=
    funext fun a => match a with | ⟨0, _⟩ => rfl | ⟨1, _⟩ => rfl
  show k0_pay1 (iblk0 V c 0 t) (iblk0 V c 1 t) j = Cert.Agg.matProd (V c main_arg0) (V c main_arg3) (((cfg0.win 2).blk t).view.emb j)
  have hemb : (((cfg0.win 2).blk t).view.emb j : S100000x64.Idx) = ix2 (n0 := 100000) (n1 := 64) ⟨t.val * 5000 + (j 0).val, by omega⟩ ⟨(j 1).val, hj1⟩ := by
    funext a; apply Fin.ext
    match a with
    | ⟨0, _⟩ => show win0_2.index t (0 : Fin 2) * 5000 + 1 * (j 0).val = t.val * 5000 + (j 0).val; omega
    | ⟨1, _⟩ => show win0_2.index t (1 : Fin 2) * 64 + 1 * (j 1).val = (j 1).val; omega
  refine (congrArg (k0_pay1 (F := Ideal) (iblk0 V c 0 t) (iblk0 V c 1 t)) hj).trans ?_
  refine (MatmulAt.pay_at (iblk0 V c 0 t) (iblk0 V c 1 t) ⟨(j 0).val, hj0⟩ ⟨(j 1).val, hj1⟩).trans ?_
  refine Eq.trans ?_ (congrArg (Cert.Agg.matProd (V c main_arg0) (V c main_arg3)) hemb).symm
  refine Eq.trans ?_ (Cert.Agg.matProd_apply (V c main_arg0) (V c main_arg3) ⟨t.val * 5000 + (j 0).val, by omega⟩ ⟨(j 1).val, hj1⟩).symm
  refine Finset.sum_congr rfl fun k _ => ?_
  show @HMul.hMul EReal EReal EReal _ (V c main_arg0 (((cfg0.win 0).blk t).view.emb (ix2 (n0 := 5000) (n1 := 128) ⟨(j 0).val, hj0⟩ k))) (V c main_arg3 (((cfg0.win 1).blk t).view.emb (ix2 (n0 := 128) (n1 := 64) k ⟨(j 1).val, hj1⟩)))
    = @HMul.hMul EReal EReal EReal _ (V c main_arg0 (ix2 (n0 := 100000) (n1 := 128) ⟨t.val * 5000 + (j 0).val, by omega⟩ k)) (V c main_arg3 (ix2 (n0 := 128) (n1 := 64) k ⟨(j 1).val, hj1⟩))
  have h0 : (((cfg0.win 0).blk t).view.emb (ix2 (n0 := 5000) (n1 := 128) ⟨(j 0).val, hj0⟩ k) : S100000x128.Idx) = ix2 (n0 := 100000) (n1 := 128) ⟨t.val * 5000 + (j 0).val, by omega⟩ k := by
    funext a; apply Fin.ext
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  have h1 : (((cfg0.win 1).blk t).view.emb (ix2 (n0 := 128) (n1 := 64) k ⟨(j 1).val, hj1⟩) : S128x64.Idx) = ix2 (n0 := 128) (n1 := 64) k ⟨(j 1).val, hj1⟩ := by
    funext a; apply Fin.ext
    match a with
    | ⟨0, _⟩ => show win0_1.index t (0 : Fin 2) * 128 + 1 * k.val = k.val; omega
    | ⟨1, _⟩ => show win0_1.index t (1 : Fin 2) * 64 + 1 * (j 1).val = (j 1).val; omega
  rw [h0, h1]

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `r` lies in the block of point `r / 5000`: the twenty blocks tile the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  refine ⟨t, flush0_2 t, ?_⟩
  rw [mem_blk]
  obtain ⟨-, -, -, -, e4, e5⟩ := idx_facts t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the call its result array is x · W of the two arrays it read. -/
theorem final (c : Dev nD) : (dat0 V c).arrAt 2 cfg0.N = Cert.Agg.matProd (V c main_arg0) (V c main_arg3) :=
  (dat0 V c).arrAt_eq_of_cover 2 (Cert.Agg.matProd (V c main_arg0) (V c main_arg3)) (fun t _ => flushed_eq V c t) cover

end Cert.KernelIdeal.Projection

end
-- ==== Proof.Messages.lean ====
/-
  The second pallas_call multiplies two [1000000, 64] arrays element by element, 10000 rows per grid point, 100 points.
  Point `t` reads rows 10000·t … 10000·t + 9999 of both operands and writes the same rows of the result, so the result
  array after the call is the elementwise product of the two arrays as the call finds them — whatever those arrays are.
-/
import proofs.«108769_j51737176047901_2_alg».proof.Proof.Gen.KernelIdeal.Frame
import Idealize.ShloMosaic.Lib.Pipeline.Value

noncomputable section

namespace Cert.KernelIdeal.Messages

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The elementwise product of two [1000000, 64] arrays. -/
abbrev prod (a b : S1000000x64.Idx → Elt F .f32) : S1000000x64.Idx → Elt F .f32 := fun i => FloatOps.mulf (a i) (b i)

/-- The body's stored value is the product of its two loaded blocks (the cast to the same shape is the identity). -/
theorem pay_eq (x0 x1 : Vec F S10000x64 .f32) : k1_pay1 x0 x1 = mulf x0 x1 := by
  unfold k1_pay1
  show mulf (shapeCast S10000x64 x0 shapeCasts_S10000x64_S10000x64) x1 = mulf x0 x1
  rw [shapeCast_self]

/-- All three windows sit on row block `t`, column block 0, at grid point `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays the call reads. -/
theorem flushed_eq (c : Dev nD) (t : Fin cfg1.N) :
    (dat1 V c).flushed 2 t = ((cfg1.win 2).blk t).view.read (Elt F) (prod (V c main_v11) (V c main_arg2)) := by
  show (cfg1.win 2).cut (grid1.coords t) ((dat1 V c).after 2 t) = _
  rw [after1_2]
  unfold out1_2
  rw [View.canon_unit_zero zero_off]
  simp only [View.ld_unit_zero (S := S10000x64) zero_off]
  rw [pay_eq]
  obtain ⟨e0, e1, e2, e3, e4, e5⟩ := idx_facts t
  funext j
  show FloatOps.mulf (V c main_v11 (((cfg1.win 0).blk t).view.emb j)) (V c main_arg2 (((cfg1.win 1).blk t).view.emb j)) = FloatOps.mulf (V c main_v11 (((cfg1.win 2).blk t).view.emb j)) (V c main_arg2 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index of the result array is in point `t`'s block iff each coordinate is in the block's range on its axis. -/
theorem mem_blk (t : Fin cfg1.N) (i : S1000000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v12).slice (win1_2.rect t)).set ↔ _
  rw [View.set_slice_whole, Rect.mem_set_unit]
  exact Iff.rfl

/-- Row `r` lies in the block of point `r / 10000`: the hundred blocks tile the array. -/
theorem cover (i : S1000000x64.Idx) : ∃ t : Fin cfg1.N, (cfg1.win 2).flush t = true ∧ i ∈ ((cfg1.win 2).blk t).view.set := by
  have hi0 : (i 0).val < 1000000 := (i 0).isLt
  have hi1 : (i 1).val < 64 := (i 1).isLt
  have hN : grid1.N = 100 := N_1
  let t : Fin cfg1.N := ⟨(i 0).val / 10000, by show (i 0).val / 10000 < grid1.N; omega⟩
  refine ⟨t, flush1_2 t, ?_⟩
  rw [mem_blk]
  obtain ⟨-, -, -, -, e4, e5⟩ := idx_facts t
  have ht : t.val = (i 0).val / 10000 := rfl
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the call its result array is the elementwise product of the two arrays it read. -/
theorem final (c : Dev nD) : (dat1 V c).arrAt 2 cfg1.N = mulf (V c main_v11) (V c main_arg2) :=
  (dat1 V c).arrAt_eq_of_cover 2 (prod (V c main_v11) (V c main_arg2)) (fun t _ => flushed_eq V c t) cover

end Cert.KernelIdeal.Messages

end
-- ==== Proof.HostChain.lean ====
/-
  The result buffer's contents at the last segment boundary, walked back to the launch memory. The last stretch adds
  the bias to the scatter-add of the second pallas_call's output; that output is the elementwise product of the
  gathered rows and the edge attributes; the gathered rows are rows of the first pallas_call's output, which is x · W;
  the edge array, the edge attributes and the bias are never written. So the result is the layer's output `G` of the
  five arguments as launched.
-/
import proofs.«108769_j51737176047901_2_alg».proof.Proof.Gen.KernelIdeal.Frame
import proofs.«108769_j51737176047901_2_alg».proof.Proof.Aggregate
import proofs.«108769_j51737176047901_2_alg».proof.Proof.Projection
import proofs.«108769_j51737176047901_2_alg».proof.Proof.Messages
import Idealize.ShloMosaic.Lib.StableHlo.Run

noncomputable section

namespace Cert.KernelIdeal.HostChain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first pallas_call -/

/-- The first call's output is x · W of the launch arguments. -/
theorem W1_xw (c : Dev nD) :
    W1 m ρ c (Proc.devRef .tc main_v0) = Cert.Agg.matProd (m ((c : Thread nD τ).loc main_arg0)) (m ((c : Thread nD τ).loc main_arg3)) :=
  (W1_arr m ρ c 2).trans (Projection.final (V0 m ρ) c)

/-- It writes neither the edge array, nor the edge attributes, nor the bias. -/
theorem W1_edges (c : Dev nD) : W1 m ρ c (Proc.devRef .tc main_arg1) = m ((c : Thread nD τ).loc main_arg1) :=
  W1_of_ne m ρ c main_arg1 (by decide)
theorem W1_attr (c : Dev nD) : W1 m ρ c (Proc.devRef .tc main_arg2) = m ((c : Thread nD τ).loc main_arg2) :=
  W1_of_ne m ρ c main_arg2 (by decide)
theorem W1_bias (c : Dev nD) : W1 m ρ c (Proc.devRef .tc main_arg4) = m ((c : Thread nD τ).loc main_arg4) :=
  W1_of_ne m ρ c main_arg4 (by decide)

/-! ## After the host operations between the calls -/

/-- The gathered rows: rows of the first call's output at the edges' source nodes. -/
theorem W2_gathered (c : Dev nD) :
    W2 m ρ c (Proc.devRef .tc main_v11)
      = Cert.Agg.gatherRows (W1 m ρ c (Proc.devRef .tc main_v0)) (Cert.Agg.srcVec (W1 m ρ c (Proc.devRef .tc main_arg1))) := by
  show StableHlo.after hostOps1 (W1 m ρ c) (Proc.devRef .tc main_v11) = _
  after_results
  rfl

/-- The destination nodes: row 1 of the edge array. -/
theorem W2_dst (c : Dev nD) :
    W2 m ρ c (Proc.devRef .tc main_v4) = Cert.Agg.dstVec (W1 m ρ c (Proc.devRef .tc main_arg1)) := by
  show StableHlo.after hostOps1 (W1 m ρ c) (Proc.devRef .tc main_v4) = _
  after_results
  rfl

/-- These operations write neither the edge attributes nor the bias. -/
theorem W2_attr (c : Dev nD) : W2 m ρ c (Proc.devRef .tc main_arg2) = W1 m ρ c (Proc.devRef .tc main_arg2) := by
  show StableHlo.after hostOps1 (W1 m ρ c) (Proc.devRef .tc main_arg2) = _
  after_results <;> rfl
theorem W2_bias (c : Dev nD) : W2 m ρ c (Proc.devRef .tc main_arg4) = W1 m ρ c (Proc.devRef .tc main_arg4) := by
  show StableHlo.after hostOps1 (W1 m ρ c) (Proc.devRef .tc main_arg4) = _
  after_results <;> rfl

/-! ## After the second pallas_call -/

/-- The second call's output: the gathered rows times the edge attributes, element by element. -/
theorem W3_msgs (c : Dev nD) :
    W3 m ρ c (Proc.devRef .tc main_v12)
      = mulf (Cert.Agg.gatherRows (Cert.Agg.matProd (m ((c : Thread nD τ).loc main_arg0)) (m ((c : Thread nD τ).loc main_arg3)))
          (Cert.Agg.srcVec (m ((c : Thread nD τ).loc main_arg1)))) (m ((c : Thread nD τ).loc main_arg2)) := by
  refine ((W3_arr m ρ c 2).trans (Messages.final (V2 m ρ) c)).trans ?_
  show (mulf (W2 m ρ c (Proc.devRef .tc main_v11) : FVec Ideal S1000000x64 .f32) (W2 m ρ c (Proc.devRef .tc main_arg2)) : FVec Ideal S1000000x64 .f32) = _
  rw [W2_gathered, W2_attr, W1_xw, W1_edges, W1_attr]

/-- It writes neither the destination nodes nor the bias. -/
theorem W3_dst (c : Dev nD) :
    W3 m ρ c (Proc.devRef .tc main_v4) = Cert.Agg.dstVec (m ((c : Thread nD τ).loc main_arg1)) := by
  rw [W3_of_ne m ρ c main_v4 (by decide)]
  show W2 m ρ c (Proc.devRef .tc main_v4) = _
  rw [W2_dst, W1_edges]
theorem W3_bias (c : Dev nD) : W3 m ρ c (Proc.devRef .tc main_arg4) = m ((c : Thread nD τ).loc main_arg4) := by
  rw [W3_of_ne m ρ c main_arg4 (by decide)]
  show W2 m ρ c (Proc.devRef .tc main_arg4) = _
  rw [W2_bias, W1_bias]

/-! ## After the last host operations -/

/-- The result buffer at the last boundary is the layer's output of the launch arguments. -/
theorem result (c : Dev nD) :
    W4 m ρ c (Proc.devRef .tc main_v18)
      = Cert.Agg.G (m ((c : Thread nD τ).loc main_arg0)) (m ((c : Thread nD τ).loc main_arg1)) (m ((c : Thread nD τ).loc main_arg2))
          (m ((c : Thread nD τ).loc main_arg3)) (m ((c : Thread nD τ).loc main_arg4)) := by
  have h : W4 m ρ c (Proc.devRef .tc main_v18)
      = Cert.Agg.combine (W3 m ρ c (Proc.devRef .tc main_v4)) (W3 m ρ c (Proc.devRef .tc main_v12)) (W3 m ρ c (Proc.devRef .tc main_arg4)) := by
    show StableHlo.after hostOps2 (W3 m ρ c) (Proc.devRef .tc main_v18) = _
    after_results
    rfl
  rw [h, W3_dst, W3_msgs, W3_bias]
  rfl

end Cert.KernelIdeal.HostChain

end
-- ==== Proof.lean ====
/-
  A graph layer: project the node features, xw = x · W; for every edge multiply row `source` of xw by the edge's
  attributes; sum the products into row `destination` of a zero array; add the bias to every row.

  The kernel program computes xw in a pallas_call over twenty row blocks (a bf16 matmul into a zero accumulator: on the
  extended reals the narrowing is the identity and the accumulator adds nothing), gathers the rows on the host,
  multiplies by the attributes in a second pallas_call over a hundred row blocks, and scatter-adds and adds the bias on
  the host. The reference computes xw as one whole dot product and the rest on the host. Both are the same sum
  xw (r, q) = Σ_k x (r, k) · W (k, q), and everything after xw is the same operations applied to equal values, so the two
  results are one function `G` of the five arguments (Proof/Aggregate.lean). No finiteness is used: only that a sum of
  products can be cut into row blocks, and that an elementwise product can.

  Proof/KernelRun.lean: the kernel program's run with the result buffer named at the last segment boundary.
  Proof/Projection.lean, Proof/MatmulAt.lean: the first call's output is x · W. Proof/Messages.lean: the second call's
  output is the elementwise product. Proof/HostChain.lean: the result buffer read back through the four segments.
-/
import proofs.«108769_j51737176047901_2_alg».proof.Defs
import proofs.«108769_j51737176047901_2_alg».proof.Proof.Gen.Kernel
import proofs.«108769_j51737176047901_2_alg».proof.Proof.Gen.Kernel.Skeleton
import proofs.«108769_j51737176047901_2_alg».proof.Proof.Gen.Kernel.Launch
import proofs.«108769_j51737176047901_2_alg».proof.Proof.Gen.Kernel.Points
import proofs.«108769_j51737176047901_2_alg».proof.Proof.Gen.Kernel.Frame
import proofs.«108769_j51737176047901_2_alg».proof.Proof.Gen.KernelIdeal
import proofs.«108769_j51737176047901_2_alg».proof.Proof.Gen.KernelIdeal.Skeleton
import proofs.«108769_j51737176047901_2_alg».proof.Proof.Gen.KernelIdeal.Launch
import proofs.«108769_j51737176047901_2_alg».proof.Proof.Gen.KernelIdeal.Points
import proofs.«108769_j51737176047901_2_alg».proof.Proof.Gen.KernelIdeal.Frame
import proofs.«108769_j51737176047901_2_alg».proof.Proof.Gen.ReferenceIdeal
import proofs.«108769_j51737176047901_2_alg».proof.Proof.Gen.ReferenceIdeal.Run
import proofs.«108769_j51737176047901_2_alg».proof.Proof.Gen.ReferenceIdeal.Read
import proofs.«108769_j51737176047901_2_alg».proof.Proof.Gen.Pre_finite_inputs
import proofs.«108769_j51737176047901_2_alg».proof.Proof.Aggregate
import proofs.«108769_j51737176047901_2_alg».proof.Proof.KernelRun
import proofs.«108769_j51737176047901_2_alg».proof.Proof.HostChain
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the layer's output `G` of the arguments they agree on. -/
theorem algebraic : Cert.algebraic_KernelIdeal_ReferenceIdeal := by
  intro m ρ m' ρ' _ hagree
  refine ⟨fun c => Cert.Agg.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HostChain.result m ρ c), (h c).2⟩)
      (Cert.KernelIdeal.KernelRun.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.Agg.ref_eq_G _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
